-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : FVec F S50000x64 .f32) (main_arg2 : FVec F S800000 .f32) (main_arg3 : FVec F S64x64 .f32) (main_arg4 : FVec F S64 .f32) (main_arg5 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S25000x128 : Shape := ⟨2, ![25000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 55
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S25000x128, .f32⟩
  | .hbm, ⟨27, _⟩ => ⟨S25000x128, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64x64, .f32⟩
  | .hbm, ⟨48, _⟩ => ⟨S64x128, .f32⟩
  | .hbm, ⟨49, _⟩ => ⟨S64x128, .f32⟩
  | .hbm, ⟨50, _⟩ => ⟨S128x128, .f32⟩
  | .hbm, ⟨51, _⟩ => ⟨S128, .f32⟩
  | .hbm, ⟨52, _⟩ => ⟨S1x128, .f32⟩
  | .hbm, ⟨53, _⟩ => ⟨S25000x128, .f32⟩
  | .hbm, ⟨54, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000x64_S25000x128 : S50000x64.ShapeCasts S25000x128
  transposes_S64x64_S64x64_1_0 : S64x64.Transposes [1, 0] S64x64
  bcast_S_S64x64 : S_.BroadcastsInDim S64x64 (![] : Fin 0 → Fin S64x64.rank)
  bcast_S_S64 : S_.BroadcastsInDim S64 (![] : Fin 0 → Fin S64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S25000x128.size a
  hwx0_4 : ∀ i : grid0.Coords, EltTy.bits .f32 = 32 ∨ (Rect.block (s := S25000x128) S5000x128.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S_, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Payload.lean ====
/-
  The kernel body's stored value, read at one entry.

  At a grid point the body loads a block `h` of the packed hidden array (5000 rows of 128 lanes: two nodes
  of 64 features per row), the matching block `x` of the packed initial features, the whole 128 x 128 folded
  weight `w` and the 1 x 128 folded bias `b`, and stores
      (0.9f * h + 0.1f * x) @ w + b.
  Over the extended reals a change of float format is the identity and the matrix unit's product into a zero
  accumulator is the plain sum over the contracted lane, so entry (p, q) of the stored block is
      sum over k < 128 of (0.9f * h[p,k] + 0.1f * x[p,k]) * w[k,q],  plus b[0,q].
-/
import proofs.«124909_j21852793602415_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.SL.Sem
open Idealize.ShloMosaic.ValueIdx

variable [Facts]
open Facts₀ Facts

/-- The contraction's left operand index at output entry `i`: row of `i`, -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and the contracted lane; -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand index: the contracted lane, -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and the column of `i`. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (p, q): the sum over the 128 contracted lanes. -/
theorem product_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The 1 x 128 bias row broadcast down the 5000 rows, at entry (p, q): the bias at lane q. -/
theorem bias_apply (b : FVec Ideal S1x128 .f32) (p : Fin 5000) (q : Fin 128) :
    broadcastTo S5000x128 b Facts₀.broadcasts_S1x128_S5000x128 (ix2 p q) = b (ix2 (0 : Fin 1) q) :=
  broadcastTo_apply b Facts₀.broadcasts_S1x128_S5000x128 (ix2 p q) (ix2 (0 : Fin 1) q) (fun a => by
    match a with
    | ⟨0, _⟩ => rfl
    | ⟨1, _⟩ => rfl)

/-- THE STORED BLOCK AT AN ENTRY: the mixed features times the folded weight, plus the folded bias. -/
theorem stored_apply (h x : Vec Ideal S5000x128 .f32) (w : Vec Ideal S128x128 .f32) (b : Vec Ideal S1x128 .f32)
    (p : Fin 5000) (q : Fin 128) :
    k0_pay1 (F := Ideal) h x w b (ix2 p q)
      = (∑ k : Fin 128, (Ideal.ofBits .f32 0x3F666666#32 * h (ix2 p k) + Ideal.ofBits .f32 0x3DCCCCCD#32 * x (ix2 p k)) * w (ix2 k q))
        + b (ix2 (0 : Fin 1) q) := by
  unfold k0_pay1
  simp only [shapeCast_self]
  refine (addf_apply _ _ _).trans ?_
  rw [product_apply, bias_apply]
  rfl

end Cert.KernelIdeal.Body

end
-- ==== Proof.PackedDef.lean ====
/-
  The packed result of the call as a function of the four arrays it is entered with:
      packed[r, q] = sum over k < 128 of (0.9f * hidden2[r,k] + 0.1f * init2[r,k]) * wbd[k,q]  +  b2[0,q]
  (25000 rows of two nodes each, 128 lanes).
-/
import proofs.«124909_j21852793602415_2_alg».proof.KernelIdeal
import Idealize.ShloMosaic.Lib.ValueIdx
import Idealize.ShloMosaic.PureOps.Ideal

noncomputable section

namespace Cert.KernelIdeal.Packed

open Cert.KernelIdeal Idealize.ShloMosaic Idealize.ShloMosaic.ValueIdx

/-- Entry (r, q) of the packed result, from the four arrays the call is entered with. -/
def packedAt (H I : S25000x128.Idx → EReal) (Wb : S128x128.Idx → EReal) (B : S1x128.Idx → EReal)
    (r : Fin 25000) (q : Fin 128) : EReal :=
  (∑ k : Fin 128, (Ideal.ofBits .f32 0x3F666666#32 * H (ix2 r k) + Ideal.ofBits .f32 0x3DCCCCCD#32 * I (ix2 r k)) * Wb (ix2 k q))
    + B (ix2 (0 : Fin 1) q)

/-- The packed result as one array. -/
def packed (H I : S25000x128.Idx → EReal) (Wb : S128x128.Idx → EReal) (B : S1x128.Idx → EReal) :
    S25000x128.Idx → EReal :=
  fun i => packedAt H I Wb B ⟨(i 0).val, (i 0).isLt⟩ ⟨(i 1).val, (i 1).isLt⟩

end Cert.KernelIdeal.Packed

end
-- ==== Proof.Packed.lean ====
/-
  The packed result array, whole.

  The call writes a 25000 x 128 array in five row blocks of 5000 rows, one per grid point; the point t reads rows
  5000 t .. 5000 t + 4999 of the packed hidden array and of the packed initial features (the same rows it writes),
  and the whole folded weight and bias. Every block is therefore a restriction of ONE function of the four arrays
  the call is entered with,
      packed[r, q] = sum over k < 128 of (0.9f * hidden2[r,k] + 0.1f * init2[r,k]) * wbd[k,q]  +  b2[0,q],
  the five blocks tile the array, and the array after the call is that function.
-/
import proofs.«124909_j21852793602415_2_alg».proof.Proof.Gen.KernelIdeal.Frame
import proofs.«124909_j21852793602415_2_alg».proof.Proof.Payload
import proofs.«124909_j21852793602415_2_alg».proof.Proof.PackedDef
import Idealize.ShloMosaic.Lib.Pipeline.Value
import Idealize.ShloMosaic.Lib.ValueIdx

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- There are five grid points. -/
theorem point_lt (t : Fin cfg0.N) : t.val < 5 := Nat.lt_of_lt_of_eq t.isLt N_0

/-- Row p of the block of point t is row 5000 t + p of the array. -/
def row (t : Fin cfg0.N) (p : Fin 5000) : Fin 25000 :=
  ⟨5000 * t.val + p.val, by have := point_lt t; have := p.isLt; omega⟩

/-- The printed index maps over the five points: the two row-blocked inputs and the output sit at block row t,
    column block 0; the weight and the bias are the one block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## A block read through its window, for any contents of the array -/

/-- Block t of a row-blocked array (window 0) at (p, k) is the array at (5000 t + p, k). -/
theorem rows0 (A : S25000x128.Idx → EReal) (t : Fin cfg0.N) (p : Fin 5000) (k : Fin 128) :
    ((cfg0.win 0).blk t).view.read (Elt Ideal) A (ix2 p k) = A (ix2 (row t p) k) := by
  obtain ⟨e0, e1, _⟩ := index_maps t
  show A (((cfg0.win 0).blk t).view.emb (ix2 p k)) = A (ix2 (row t p) k)
  refine congrArg A (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- The same for window 1. -/
theorem rows1 (A : S25000x128.Idx → EReal) (t : Fin cfg0.N) (p : Fin 5000) (k : Fin 128) :
    ((cfg0.win 1).blk t).view.read (Elt Ideal) A (ix2 p k) = A (ix2 (row t p) k) := by
  obtain ⟨_, _, e0, e1, _⟩ := index_maps t
  show A (((cfg0.win 1).blk t).view.emb (ix2 p k)) = A (ix2 (row t p) k)
  refine congrArg A (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- Window 2's one block is the whole 128 x 128 array. -/
theorem whole2 (A : S128x128.Idx → EReal) (t : Fin cfg0.N) (k q : Fin 128) :
    ((cfg0.win 2).blk t).view.read (Elt Ideal) A (ix2 k q) = A (ix2 k q) := by
  obtain ⟨_, _, _, _, e0, e1, _⟩ := index_maps t
  show A (((cfg0.win 2).blk t).view.emb (ix2 k q)) = A (ix2 k q)
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Window 3's one block is the whole 1 x 128 array. -/
theorem whole3 (A : S1x128.Idx → EReal) (t : Fin cfg0.N) (q : Fin 128) :
    ((cfg0.win 3).blk t).view.read (Elt Ideal) A (ix2 (0 : Fin 1) q) = A (ix2 (0 : Fin 1) q) := by
  obtain ⟨_, _, _, _, _, _, e0, e1, _⟩ := index_maps t
  show A (((cfg0.win 3).blk t).view.emb (ix2 (0 : Fin 1) q)) = A (ix2 (0 : Fin 1) q)
  refine congrArg A (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Block t of the output array (window 4) at (p, q) is the array at (5000 t + p, q). -/
theorem rows4 (A : S25000x128.Idx → EReal) (t : Fin cfg0.N) (p : Fin 5000) (q : Fin 128) :
    ((cfg0.win 4).blk t).view.read (Elt Ideal) A (ix2 p q) = A (ix2 (row t p) q) := by
  obtain ⟨_, _, _, _, _, _, _, _, e0, e1⟩ := index_maps t
  show A (((cfg0.win 4).blk t).view.emb (ix2 p q)) = A (ix2 (row t p) q)
  refine congrArg A (funext fun a => Fin.ext ?_)
  match a with
  | ⟨0, _⟩ => show win0_4.index t (0 : Fin 2) * 5000 + 1 * p.val = 5000 * t.val + p.val; omega
  | ⟨1, _⟩ => show win0_4.index t (1 : Fin 2) * 128 + 1 * q.val = q.val; omega

/-- THE BODY'S STORED BLOCK IS A BLOCK OF THE PACKED RESULT, for any four arrays whose blocks the body loaded:
    the stored value of the blocks of (H, I, Wb, B) at point t is block t of packed H I Wb B. -/
theorem stored_is_block (H I : S25000x128.Idx → EReal) (Wb : S128x128.Idx → EReal) (B : S1x128.Idx → EReal)
    (t : Fin cfg0.N) (h x : Vec Ideal S5000x128 .f32) (w : Vec Ideal S128x128 .f32) (b : Vec Ideal S1x128 .f32)
    (hh : ∀ (p : Fin 5000) (k : Fin 128), h (ix2 p k) = H (ix2 (row t p) k))
    (hx : ∀ (p : Fin 5000) (k : Fin 128), x (ix2 p k) = I (ix2 (row t p) k))
    (hw : ∀ k q : Fin 128, w (ix2 k q) = Wb (ix2 k q))
    (hb : ∀ q : Fin 128, b (ix2 (0 : Fin 1) q) = B (ix2 (0 : Fin 1) q))
    (p : Fin 5000) (q : Fin 128) :
    k0_pay1 (F := Ideal) h x w b (ix2 p q) = ((cfg0.win 4).blk t).view.read (Elt Ideal) (packed H I Wb B) (ix2 p q) := by
  rw [rows4 (packed H I Wb B) t p q]
  show _ = packedAt H I Wb B (row t p) q
  refine (Body.stored_apply h x w b p q).trans ?_
  unfold packedAt
  refine congrArg₂ (· + ·) (Finset.sum_congr rfl fun k _ => ?_) (hb q)
  rw [hh, hx, hw]

end Cert.KernelIdeal.Packed

end
-- ==== Proof.Blocks.lean ====
/-
  The array the call leaves: the packed result.

  At every grid point the body's staging buffers hold the point's blocks of the four arrays the call is entered
  with, so what the point writes back is its block of the packed result of those arrays; row r of the array lies
  in the block of point r / 5000, so the five write-backs cover the array, and the array after the call is the
  packed result.
-/
import proofs.«124909_j21852793602415_2_alg».proof.Proof.Packed

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The hidden block of point t at (p, k) is the packed hidden array, as the call finds it, at (5000 t + p, k). -/
theorem read_hidden (c : Dev nD) (t : Fin cfg0.N) (p : Fin 5000) (k : Fin 128) :
    iblk m c 0 t (ix2 p k) = V m c main_v17 (ix2 (row t p) k) := by
  unfold iblk
  exact rows0 (V m c main_v17) t p k

/-- The initial-feature block likewise. -/
theorem read_init (c : Dev nD) (t : Fin cfg0.N) (p : Fin 5000) (k : Fin 128) :
    iblk m c 1 t (ix2 p k) = V m c main_v18 (ix2 (row t p) k) := by
  unfold iblk
  exact rows1 (V m c main_v18) t p k

/-- The weight block is the whole folded weight. -/
theorem read_weight (c : Dev nD) (t : Fin cfg0.N) (k q : Fin 128) :
    iblk m c 2 t (ix2 k q) = V m c main_v36 (ix2 k q) := by
  unfold iblk
  exact whole2 (V m c main_v36) t k q

/-- The bias block is the whole folded bias. -/
theorem read_bias (c : Dev nD) (t : Fin cfg0.N) (q : Fin 128) :
    iblk m c 3 t (ix2 (0 : Fin 1) q) = V m c main_v38 (ix2 (0 : Fin 1) q) := by
  unfold iblk
  exact whole3 (V m c main_v38) t q

/-- WHAT POINT t WRITES BACK is block t of the packed result. -/
theorem flushed_eq (c : Dev nD) (t : Fin cfg0.N) :
    (dats m 0 c).flushed 4 t = ((cfg0.win 4).blk t).view.read (Elt Ideal)
      (packed (V m c main_v17) (V m c main_v18) (V m c main_v36) (V m c main_v38)) := by
  show (cfg0.win 4).cut (grid0.coords t) ((dats m 0 c).after 4 t) = _
  rw [after0_4]
  unfold out0_4
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (ix2 p q) = _
  exact stored_is_block (V m c main_v17) (V m c main_v18) (V m c main_v36) (V m c main_v38) t
    (iblk m c 0 t) (iblk m c 1 t) (iblk m c 2 t) (iblk m c 3 t)
    (read_hidden m c t) (read_init m c t) (read_weight m c t) (read_bias m c t) p q

/-- An index of the array is in point t's block iff each coordinate is in the block's range on its axis. -/
theorem mem_blk (t : Fin cfg0.N) (i : S25000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v39).slice (win0_4.rect t)).set ↔ _
  rw [View.set_slice_whole, Rect.mem_set_unit]
  exact Iff.rfl

/-- The five blocks cover the array: row r lies in the block of point r / 5000. -/
theorem cover (i : S25000x128.Idx) :
    ∃ t : Fin cfg0.N, (cfg0.win 4).flush t = true ∧ i ∈ ((cfg0.win 4).blk t).view.set := by
  have hi0 : (i 0).val < 25000 := (i 0).isLt
  have hi1 : (i 1).val < 128 := (i 1).isLt
  obtain ⟨t, ht⟩ : ∃ t : Fin cfg0.N, t.val = (i 0).val / 5000 :=
    ⟨⟨(i 0).val / 5000, by rw [show cfg0.N = 5 from N_0]; omega⟩, rfl⟩
  obtain ⟨_, _, _, _, _, _, _, _, e0, e1⟩ := index_maps t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY AFTER THE CALL is the packed result of the four arrays the call is entered with. -/
theorem final (c : Dev nD) : (dats m 0 c).arrAt 4 cfg0.N
    = packed (V m c main_v17) (V m c main_v18) (V m c main_v36) (V m c main_v38) :=
  (dats m 0 c).arrAt_eq_of_cover 4 _ (fun t _ => flushed_eq m c t) cover

end Cert.KernelIdeal.Packed

end
-- ==== Proof.Entry.lean ====
import proofs.«124909_j21852793602415_2_alg».proof.Proof.Gen.KernelIdeal.Frame
import proofs.«124909_j21852793602415_2_alg».proof.Proof.Gen.ReferenceIdeal.Read
import Idealize.ShloMosaic.Lib.StableHlo.Run
import Idealize.ShloMosaic.Lib.Pipeline.Value

noncomputable section

open Idealize.ShloMosaic Idealize.ShloMosaic.TcCoe Idealize.SL.Sem

namespace Cert.KernelIdeal.Entry

open Cert.KernelIdeal Cert.KernelIdeal.Gen

variable (m : (ℓ : Loc Cert.KernelIdeal.nD Cert.KernelIdeal.τ Cert.KernelIdeal.sig) → Buf (Elt Ideal) ℓ)

/-- The call is entered with the second operand the input array `init` (50000 × 64) read row-major at shape
    25000 × 128. -/
theorem V_init (c : Dev nD) :
    Gen.V m c main_v18
      = shapeCast S25000x128 (m ((c : Thread nD τ).loc main_arg1)) Facts₀.shapeCasts_S50000x64_S25000x128 := by
  show StableHlo.after hostOps0 (fun b => m (c, b)) (Proc.devRef .tc main_v18) = _
  after_results_simp
  rfl

/-- After the call, the program's result is the call's output array (25000 × 128) read row-major at shape
    50000 × 64. -/
theorem tail_eq (c : Dev nD) :
    Pipeline.afterTail₀ cfgs (dats m) 0 (V0 m) [hostOps1] c main_v40
      = shapeCast S50000x64 ((dats m 0 c).arrAt 4 cfg0.N) Facts₀.shapeCasts_S25000x128_S50000x64 := by
  unfold Pipeline.afterTail₀
  show StableHlo.after hostOps1 _ (Proc.devRef .tc main_v40) = _
  after_results
  rw [Pipeline.withArrays_arr spec0 launch0.win.arr_inj c _ _ 4]
  rfl

/-- The call is entered with the first operand the segment sum `hidden` (50000 × 64) read row-major at shape
    25000 × 128: the program computes it, before the call, by the same operations as the reference does, so the two
    terms agree up to the names of the shapes and of their side conditions. -/
theorem V_hidden (c : Dev nD) :
    Gen.V m c main_v17
      = shapeCast S25000x128
          (Cert.ReferenceIdeal.Read.val_main_v16 (F := Ideal) (m ((c : Thread nD τ).loc main_arg0))
            (m ((c : Thread nD τ).loc main_arg2)) (m ((c : Thread nD τ).loc main_arg5)))
          Facts₀.shapeCasts_S50000x64_S25000x128 := by
  show StableHlo.after hostOps0 (fun b => m (c, b)) (Proc.devRef .tc main_v17) = _
  after_results_simp
  rfl

end Cert.KernelIdeal.Entry

end
-- ==== Proof.Weights.lean ====
import proofs.«124909_j21852793602415_2_alg».proof.Proof.Gen.KernelIdeal.Frame
import Idealize.ShloMosaic.Lib.Pipeline.Value
import Idealize.ShloMosaic.Lib.ValueIdx
import Idealize.ShloMosaic.Lib.IdealHost
import Idealize.ShloMosaic.Lib.StableHlo.Run

noncomputable section

namespace Cert.KernelIdeal.Weights

open Idealize.ShloMosaic Idealize.ShloMosaic.TcCoe Idealize.SL.Sem
open Cert.KernelIdeal Cert.KernelIdeal.Gen Idealize.ShloMosaic.ValueIdx

variable [Cert.KernelIdeal.Facts]

/-! ## The folded weights, as the host computes them before the call

The host folds the residual mix into the linear layer: from the weight matrix `W` (64 × 64) it forms
`wtEff = ½·Wᵀ + ½·I`, and the 128 × 128 block-diagonal matrix with two copies of `wtEff` on the diagonal and
zeros elsewhere; from the bias `b` (64) it forms the row `[½·b, ½·b]` (1 × 128). -/

/-- The transpose of `W`. -/
def wT (W : FVec Ideal S64x64 .f32) : FVec Ideal S64x64 .f32 :=
  transpose S64x64 [1, 0] W Facts₀.transposes_S64x64_S64x64_1_0

/-- The 64 × 64 array every entry of which is one half. -/
def half64x64 : FVec Ideal S64x64 .f32 :=
  broadcastInDim S64x64 ![] Facts₀.bcast_S_S64x64 (constant (F := Ideal) S_ .f32 0x3F000000#32)

/-- One half times the transpose of `W`. -/
def halfWT (W : FVec Ideal S64x64 .f32) : FVec Ideal S64x64 .f32 :=
  mulf half64x64 (wT W)

/-- The row coordinate of each entry, as a word. -/
def rowIota : IVec S64x64 32 := iotaInDim S64x64 32 0

/-- The column coordinate of each entry, as a word. -/
def colIota : IVec S64x64 32 := iotaInDim S64x64 32 1

/-- The 64 × 64 array of zero words. -/
def zeroWords : IVec S64x64 32 :=
  broadcastInDim S64x64 ![] Facts₀.bcast_S_S64x64 (constantI S_ 32 0#32)

/-- The row coordinate plus zero. -/
def rowIota0 : IVec S64x64 32 := addi rowIota zeroWords

/-- The bit "row = column". -/
def diagBit : IVec S64x64 1 := cmpi .eq rowIota0 colIota

/-- The identity matrix as floats: one on the diagonal, zero off it. -/
def eye : FVec Ideal S64x64 .f32 := uitofp .f32 diagBit

/-- One half times the identity matrix. -/
def halfEye : FVec Ideal S64x64 .f32 := mulf half64x64 eye

/-- `wtEff = ½·Wᵀ + ½·I`. -/
def wtEff (W : FVec Ideal S64x64 .f32) : FVec Ideal S64x64 .f32 :=
  addf (halfWT W) halfEye

/-- The 64 × 64 array of zeros. -/
def zeros64x64 : FVec Ideal S64x64 .f32 :=
  broadcastInDim S64x64 ![] Facts₀.bcast_S_S64x64 (constant (F := Ideal) S_ .f32 0x00000000#32)

/-- The upper half `[wtEff, 0]` (64 × 128). -/
def upper (W : FVec Ideal S64x64 .f32) : FVec Ideal S64x128 .f32 :=
  concatenate S64x128 1 [⟨S64x64, wtEff W⟩, ⟨S64x64, zeros64x64⟩] Facts₀.concatenates_S64x64_S64x64_S64x128_d1

/-- The lower half `[0, wtEff]` (64 × 128). -/
def lower (W : FVec Ideal S64x64 .f32) : FVec Ideal S64x128 .f32 :=
  concatenate S64x128 1 [⟨S64x64, zeros64x64⟩, ⟨S64x64, wtEff W⟩] Facts₀.concatenates_S64x64_S64x64_S64x128_d1

/-- The block-diagonal matrix `[[wtEff, 0], [0, wtEff]]` (128 × 128). -/
def wbd (W : FVec Ideal S64x64 .f32) : FVec Ideal S128x128 .f32 :=
  concatenate S128x128 0 [⟨S64x128, upper W⟩, ⟨S64x128, lower W⟩] Facts₀.concatenates_S64x128_S64x128_S128x128_d0

/-- The 64-vector every entry of which is one half. -/
def half64 : FVec Ideal S64 .f32 :=
  broadcastInDim S64 ![] Facts₀.bcast_S_S64 (constant (F := Ideal) S_ .f32 0x3F000000#32)

/-- One half times the bias. -/
def halfB (b : FVec Ideal S64 .f32) : FVec Ideal S64 .f32 := mulf half64 b

/-- The bias row `[½·b, ½·b]` as a 128-vector. -/
def bcat (b : FVec Ideal S64 .f32) : FVec Ideal S128 .f32 :=
  concatenate S128 0 [⟨S64, halfB b⟩, ⟨S64, halfB b⟩] Facts₀.concatenates_S64_S64_S128_d0

/-- The bias row `[½·b, ½·b]` (1 × 128). -/
def b2 (b : FVec Ideal S64 .f32) : FVec Ideal S1x128 .f32 :=
  shapeCast S1x128 (bcat b) Facts₀.shapeCasts_S128_S1x128

/-! ## The host's buffers are these values -/

open Idealize.ShloMosaic.StableHlo in
/-- When the call is entered, the third operand's buffer holds the block-diagonal matrix built from the weight argument. -/
theorem V_wbd (m : (ℓ : Loc nD τ sig) → Buf (Elt Ideal) ℓ) (c : Dev nD) :
    Gen.V m c main_v36 = wbd (m ((c : Thread nD τ).loc main_arg3)) := by
  show StableHlo.after hostOps0 (fun b => m (c, b)) (Proc.devRef .tc main_v36) = _
  after_results_simp
  rfl

open Idealize.ShloMosaic.StableHlo in
/-- When the call is entered, the fourth operand's buffer holds the doubled half-bias row built from the bias argument. -/
theorem V_b2 (m : (ℓ : Loc nD τ sig) → Buf (Elt Ideal) ℓ) (c : Dev nD) :
    Gen.V m c main_v38 = b2 (m ((c : Thread nD τ).loc main_arg4)) := by
  show StableHlo.after hostOps0 (fun b => m (c, b)) (Proc.devRef .tc main_v38) = _
  after_results_simp
  rfl

/-! ## The values read at an index -/

/-- Two coordinates below 64, as 32-bit words (the first with zero added), are equal words exactly when they are equal. -/
theorem diagBit_eq (k j : Fin 64) :
    IntOp.cmpi .eq (IntOp.addi (BitVec.ofNat 32 k.val) 0#32) (BitVec.ofNat 32 j.val) = if k = j then 1#1 else 0#1 := by
  unfold IntOp.cmpi IntOp.addi
  rw [BitVec.add_zero]
  by_cases h : k = j
  · subst h; simp
  · rw [if_neg h]
    have hne : BitVec.ofNat 32 k.val ≠ BitVec.ofNat 32 j.val := by
      intro e
      have e' := congrArg BitVec.toNat e
      rw [BitVec.toNat_ofNat, BitVec.toNat_ofNat] at e'
      apply h; apply Fin.ext; omega
    rw [beq_eq_false_iff_ne.mpr hne]
    rfl

/-- Every entry of the constant one-half matrix is the value of the bit pattern of one half. -/
theorem half64x64_apply (i : S64x64.Idx) : half64x64 i = Ideal.ofBits .f32 0x3F000000#32 := by
  unfold half64x64
  rw [broadcastInDim_scalar_apply]
  rfl

/-- Every entry of the zero matrix is zero. -/
theorem zeros64x64_apply (i : S64x64.Idx) : zeros64x64 i = 0 := by
  unfold zeros64x64
  rw [broadcastInDim_scalar_apply]
  exact Ideal.ofBits_zero_f32

/-- The transpose at row `k`, column `j` is `W` at row `j`, column `k`. -/
theorem wT_apply (W : FVec Ideal S64x64 .f32) (k j : Fin 64) : wT W (ix2 k j) = W (ix2 j k) := by
  unfold wT
  exact transpose_apply [1, 0] W _ (ix2 k j) (ix2 j k) (fun b => match b with
    | ⟨0, _⟩ => rfl
    | ⟨1, _⟩ => rfl)

/-- The identity matrix at row `k`, column `j` is one when `k = j` and zero otherwise. -/
theorem eye_apply (k j : Fin 64) : eye (ix2 k j) = if k = j then (1 : EReal) else 0 := by
  have hz : zeroWords (ix2 k j) = 0#32 := by
    unfold zeroWords
    rw [broadcastInDim_scalar_apply]
    rfl
  have hb : diagBit (ix2 k j) = if k = j then 1#1 else 0#1 := by
    show IntOp.cmpi .eq (IntOp.addi (rowIota (ix2 k j)) (zeroWords (ix2 k j))) (colIota (ix2 k j)) = _
    rw [hz]
    exact diagBit_eq k j
  show (((diagBit (ix2 k j)).toNat : ℝ) : EReal) = _
  rw [hb]
  by_cases h : k = j
  · rw [if_pos h, if_pos h]; simp
  · rw [if_neg h, if_neg h]; simp

/-- `wtEff` at row `k`, column `j` is `½·W[j,k] + ½·[k = j]`. -/
theorem wtEff_apply (W : FVec Ideal S64x64 .f32) (k j : Fin 64) :
    wtEff W (ix2 k j) = Ideal.ofBits .f32 0x3F000000#32 * W (ix2 j k)
      + Ideal.ofBits .f32 0x3F000000#32 * (if k = j then (1 : EReal) else 0) := by
  unfold wtEff halfWT halfEye
  rw [addf_apply, mulf_apply, mulf_apply, half64x64_apply, wT_apply, eye_apply]

/-- The block-diagonal matrix at row `64·s' + k`, column `64·s + j`: the entry `(k, j)` of `wtEff` on a diagonal block
    (`s' = s`), zero on an off-diagonal one. -/
theorem wbd_apply (W : FVec Ideal S64x64 .f32) (s' s : Fin 2) (k j : Fin 64) :
    wbd W (ix2 (⟨64 * s'.val + k.val, by omega⟩ : Fin 128) (⟨64 * s.val + j.val, by omega⟩ : Fin 128))
      = if s' = s then Ideal.ofBits .f32 0x3F000000#32 * W (ix2 j k)
          + Ideal.ofBits .f32 0x3F000000#32 * (if k = j then (1 : EReal) else 0) else 0 := by
  have hs' : s'.val = 0 ∨ s'.val = 1 := by omega
  have hs : s.val = 0 ∨ s.val = 1 := by omega
  unfold wbd
  rcases hs' with h' | h'
  · -- a row of the upper half
    refine (concatenate_pair_apply_left 0 (upper W) (lower W) Facts₀.concatenates_S64x128_S64x128_S128x128_d0
      (ix2 (⟨64 * s'.val + k.val, by omega⟩ : Fin 128) (⟨64 * s.val + j.val, by omega⟩ : Fin 128)) rfl
      (ix2 k (⟨64 * s.val + j.val, by omega⟩ : Fin 128)) (fun b => match b with
        | ⟨0, _⟩ => by show k.val = 64 * s'.val + k.val; omega
        | ⟨1, _⟩ => rfl)).trans ?_
    unfold upper
    rcases hs with h | h
    · -- the left block: wtEff
      refine (concatenate_pair_apply_left 1 (wtEff W) zeros64x64 Facts₀.concatenates_S64x64_S64x64_S64x128_d1
        (ix2 k (⟨64 * s.val + j.val, by omega⟩ : Fin 128)) rfl (ix2 k j) (fun b => match b with
        | ⟨0, _⟩ => rfl
        | ⟨1, _⟩ => by show j.val = 64 * s.val + j.val; omega)).trans ?_
      rw [if_pos (Fin.ext (by omega)), wtEff_apply]
    · -- the right block: zeros
      refine (concatenate_pair_apply_right 1 (wtEff W) zeros64x64 Facts₀.concatenates_S64x64_S64x64_S64x128_d1
        (ix2 k (⟨64 * s.val + j.val, by omega⟩ : Fin 128)) rfl rfl (ix2 k j)
        (fun b hb => match b, hb with
          | ⟨0, _⟩, _ => rfl
          | ⟨1, _⟩, hb => absurd rfl hb)
        (by show j.val + 64 = 64 * s.val + j.val; omega)).trans ?_
      rw [if_neg (fun e => by have := congrArg Fin.val e; omega), zeros64x64_apply]
  · -- a row of the lower half
    refine (concatenate_pair_apply_right 0 (upper W) (lower W) Facts₀.concatenates_S64x128_S64x128_S128x128_d0
      (ix2 (⟨64 * s'.val + k.val, by omega⟩ : Fin 128) (⟨64 * s.val + j.val, by omega⟩ : Fin 128)) rfl rfl
      (ix2 k (⟨64 * s.val + j.val, by omega⟩ : Fin 128))
      (fun b hb => match b, hb with
        | ⟨0, _⟩, hb => absurd rfl hb
        | ⟨1, _⟩, _ => rfl)
      (by show k.val + 64 = 64 * s'.val + k.val; omega)).trans ?_
    unfold lower
    rcases hs with h | h
    · -- the left block: zeros
      refine (concatenate_pair_apply_left 1 zeros64x64 (wtEff W) Facts₀.concatenates_S64x64_S64x64_S64x128_d1
        (ix2 k (⟨64 * s.val + j.val, by omega⟩ : Fin 128)) rfl (ix2 k j) (fun b => match b with
        | ⟨0, _⟩ => rfl
        | ⟨1, _⟩ => by show j.val = 64 * s.val + j.val; omega)).trans ?_
      rw [if_neg (fun e => by have := congrArg Fin.val e; omega), zeros64x64_apply]
    · -- the right block: wtEff
      refine (concatenate_pair_apply_right 1 zeros64x64 (wtEff W) Facts₀.concatenates_S64x64_S64x64_S64x128_d1
        (ix2 k (⟨64 * s.val + j.val, by omega⟩ : Fin 128)) rfl rfl (ix2 k j)
        (fun b hb => match b, hb with
          | ⟨0, _⟩, _ => rfl
          | ⟨1, _⟩, hb => absurd rfl hb)
        (by show j.val + 64 = 64 * s.val + j.val; omega)).trans ?_
      rw [if_pos (Fin.ext (by omega)), wtEff_apply]

/-- Every entry of the constant one-half vector is the value of the bit pattern of one half. -/
theorem half64_apply (i : S64.Idx) : half64 i = Ideal.ofBits .f32 0x3F000000#32 := by
  unfold half64
  rw [broadcastInDim_scalar_apply]
  rfl

/-- The half bias at `j` is `½·b[j]`. -/
theorem halfB_apply (b : FVec Ideal S64 .f32) (i : S64.Idx) : halfB b i = Ideal.ofBits .f32 0x3F000000#32 * b i := by
  unfold halfB
  rw [mulf_apply, half64_apply]

/-- The bias row at column `64·s + j` is `½·b[j]`, in either half. -/
theorem b2_apply (b : FVec Ideal S64 .f32) (s : Fin 2) (j : Fin 64) :
    b2 b (ix2 (0 : Fin 1) (⟨64 * s.val + j.val, by omega⟩ : Fin 128)) = Ideal.ofBits .f32 0x3F000000#32 * b (ix1 j) := by
  have hs : s.val = 0 ∨ s.val = 1 := by omega
  unfold b2
  refine (shapeCast_apply (bcat b) Facts₀.shapeCasts_S128_S1x128
    (ix2 (0 : Fin 1) (⟨64 * s.val + j.val, by omega⟩ : Fin 128)) (ix1 (⟨64 * s.val + j.val, by omega⟩ : Fin 128))
    (by rw [Shape.rowMajor_val_two, Shape.rowMajor_val_one]
        show 64 * s.val + j.val = 0 * 128 + (64 * s.val + j.val); omega)).trans ?_
  unfold bcat
  rcases hs with h | h
  · refine (concatenate_pair_apply_left 0 (halfB b) (halfB b) Facts₀.concatenates_S64_S64_S128_d0
      (ix1 (⟨64 * s.val + j.val, by omega⟩ : Fin 128)) rfl (ix1 j) (fun a => match a with
      | ⟨0, _⟩ => by show j.val = 64 * s.val + j.val; omega)).trans ?_
    rw [halfB_apply]
  · refine (concatenate_pair_apply_right 0 (halfB b) (halfB b) Facts₀.concatenates_S64_S64_S128_d0
      (ix1 (⟨64 * s.val + j.val, by omega⟩ : Fin 128)) rfl rfl (ix1 j)
      (fun a ha => match a, ha with
        | ⟨0, _⟩, ha => absurd rfl ha)
      (by show j.val + 64 = 64 * s.val + j.val; omega)).trans ?_
    rw [halfB_apply]

end Cert.KernelIdeal.Weights

end
-- ==== Proof.KernelRun.lean ====
/-
  The kernel program's run, read as a value.

  Every weakly fair execution of the idealized kernel program ends with its result array at ONE function of the
  argument arrays: the packed result of (the hidden array reshaped to 25000 x 128, init_x reshaped likewise, the
  folded block-diagonal weight, the folded bias), re-read as 50000 x 64; and with the arguments unchanged.
-/
import proofs.«124909_j21852793602415_2_alg».proof.Proof.Blocks
import proofs.«124909_j21852793602415_2_alg».proof.Proof.Entry
import proofs.«124909_j21852793602415_2_alg».proof.Proof.Weights

set_option maxRecDepth 16384

noncomputable section

namespace Cert.KernelIdeal.Run

open Cert.KernelIdeal Cert.KernelIdeal.Gen Idealize.ShloMosaic Idealize.ShloMosaic.TcCoe Idealize.SL.Sem
open Cert.KernelIdeal.Packed Cert.KernelIdeal.Weights Cert.KernelIdeal.Entry

/-- The kernel program's result as a function of its six arguments. -/
def result (x0 x1 : FVec Ideal S50000x64 .f32) (x2 : FVec Ideal S800000 .f32) (x3 : FVec Ideal S64x64 .f32)
    (x4 : FVec Ideal S64 .f32) (x5 : IVec S2x800000 32) : FVec Ideal S50000x64 .f32 :=
  shapeCast S50000x64
    (packed (shapeCast S25000x128 (Cert.ReferenceIdeal.Read.val_main_v16 (F := Ideal) x0 x2 x5) Facts₀.shapeCasts_S50000x64_S25000x128)
      (shapeCast S25000x128 x1 Facts₀.shapeCasts_S50000x64_S25000x128) (wbd x3) (b2 x4))
    Facts₀.shapeCasts_S25000x128_S50000x64

variable (m : (ℓ : Loc nD τ sig) → Buf (Elt Ideal) ℓ) (ρ : Dev nD → PrngReg)

/-- What @main returns, from the launch memory. -/
theorem returned (c : Dev nD) :
    Pipeline.afterTail₀ cfgs (dats m) 0 (V0 m) [hostOps1] c main_v40
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq, final, V_hidden, V_init, V_wbd, V_b2]
  rfl

/-- THE RUN: the result at `result` of the arguments, the arguments unchanged. -/
theorem run : θ_run defs (onTc (τ := τ) (main (F := Ideal))) ⟨m, fun _ => 0, ρ⟩ (fun r => ∀ c : Dev nD,
      r.2.mem ((c.tc : Thread nD τ).loc main_v40)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_v40 (Pipeline.mem_restRefs_of main_v40 (by decide) (by decide))).trans (returned m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Run

end
-- ==== Proof.RefValue.lean ====
/-
  The reference's result, read at one entry.

  After the sparse step (kept here as the one named stage `hidden`), the reference mixes
      hc = 0.9f * hidden + 0.1f * init_x,
  applies the linear layer  lin = hc @ Wᵀ + b  and returns  0.5 * lin + 0.5 * hc.  Over the extended reals the
  host product is the plain sum over the 64 contracted features, so entry (n, j) of the result is
      0.5 * ((sum over k < 64 of hc[n,k] * W[j,k]) + b[j])  +  0.5 * hc[n,j].
-/
import proofs.«124909_j21852793602415_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable [Facts]

/-- The mixed features at one entry. -/
theorem mixed_apply (x0 x1 : FVec Ideal S50000x64 .f32) (x2 : FVec Ideal S800000 .f32) (x5 : IVec S2x800000 32)
    (i : S50000x64.Idx) :
    val_main_v21 (F := Ideal) x0 x1 x2 x5 i
      = Ideal.ofBits .f32 0x3F666666#32 * val_main_v16 (F := Ideal) x0 x2 x5 i + Ideal.ofBits .f32 0x3DCCCCCD#32 * x1 i := by
  rw [val_main_v21_apply, val_main_v18_apply, val_main_v20_apply, val_main_v17_apply, val_main_v19_apply,
    val_main_cst_1_apply, val_main_cst_2_apply]
  rfl

/-- THE REFERENCE'S RESULT AT ENTRY (n, j). -/
theorem result_apply (x0 x1 : FVec Ideal S50000x64 .f32) (x2 : FVec Ideal S800000 .f32) (x3 : FVec Ideal S64x64 .f32)
    (x4 : FVec Ideal S64 .f32) (x5 : IVec S2x800000 32) (n : Fin 50000) (j : Fin 64) :
    val_main_v31 (F := Ideal) x0 x1 x2 x3 x4 x5 (ix2 n j)
      = Ideal.ofBits .f32 0x3F000000#32
          * ((∑ k : Fin 64, (Ideal.ofBits .f32 0x3F666666#32 * val_main_v16 (F := Ideal) x0 x2 x5 (ix2 n k)
                + Ideal.ofBits .f32 0x3DCCCCCD#32 * x1 (ix2 n k)) * x3 (ix2 j k)) + x4 (ix1 j))
        + Ideal.ofBits .f32 0x3F000000#32
          * (Ideal.ofBits .f32 0x3F666666#32 * val_main_v16 (F := Ideal) x0 x2 x5 (ix2 n j)
              + Ideal.ofBits .f32 0x3DCCCCCD#32 * x1 (ix2 n j)) := by
  have il : ∀ k : Fin 64, lidx_main_v23 (ix2 n j) k = ix2 n k := fun k => funext fun a => Fin.ext (by
    match a with
    | ⟨0, _⟩ => rfl
    | ⟨1, _⟩ => rfl)
  have ir : ∀ k : Fin 64, idx_main_v22 (ridx_main_v23 (ix2 n j) k) = ix2 j k := fun k => funext fun a => Fin.ext (by
    match a with
    | ⟨0, _⟩ => rfl
    | ⟨1, _⟩ => rfl)
  have ib : idx_main_v24 (idx_main_v25 (ix2 n j)) = ix1 j := funext fun a => Fin.ext (by
    match a with
    | ⟨0, _⟩ => rfl)
  rw [val_main_v31_apply, val_main_v28_apply, val_main_v30_apply, val_main_v27_apply, val_main_v29_apply,
    val_main_cst_3_apply, val_main_cst_4_apply, val_main_v26_apply, val_main_v23_apply, val_main_v25_apply,
    val_main_v24_apply, ib, mixed_apply]
  simp only [mixed_apply, val_main_v22_apply, il, ir]
  rfl

end Cert.ReferenceIdeal.RefValue

end
-- ==== Proof.Algebra.lean ====
/-
  The algebra that joins the two programs, free of any program.

  The kernel contracts a packed row (two nodes, 128 lanes) against a block-diagonal 128 x 128 weight whose
  diagonal blocks are  c * Wᵀ + c * I  (c = 1/2); only the half of the row that belongs to the node in question
  meets a non-zero block. For real numbers
      sum_k h_k * (c * w_k + c * [k = j]) + c * b  =  c * (sum_k h_k * w_k + b) + c * h_j,
  by distributivity — which is why the entries must be real: the law fails at the infinities of the extended
  reals. The sum over 128 lanes is the sum over the two halves of 64.
-/
import Idealize.ShloMosaic.PureOps.Ideal

noncomputable section

namespace Cert.Algebra

open scoped BigOperators

/-- The inclusion of the reals in the extended reals carries a finite sum to the sum of the images. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over 128 lanes is the sum over the two halves of 64 lanes: lane 64 s + k. -/
theorem sum_halves {M : Type*} [AddCommMonoid M] (f : Fin 128 → M) :
    ∑ k' : Fin 128, f k'
      = ∑ s' : Fin 2, ∑ k : Fin 64, f ⟨64 * s'.val + k.val, by have := s'.isLt; have := k.isLt; omega⟩ := by
  rw [Fin.sum_univ_two]
  refine (Fin.sum_univ_add (a := 64) (b := 64) f).trans ?_
  refine congrArg₂ (· + ·) (Finset.sum_congr rfl fun k _ => congrArg f (Fin.ext ?_))
    (Finset.sum_congr rfl fun k _ => congrArg f (Fin.ext ?_))
  · show k.val = 64 * 0 + k.val; omega
  · show 64 + k.val = 64 * 1 + k.val; omega

/-- The fold of the residual mix into the weight, over the reals. -/
theorem fold_real (h w : Fin 64 → ℝ) (c b : ℝ) (j : Fin 64) :
    (∑ k, h k * (c * w k + c * (if k = j then (1 : ℝ) else 0))) + c * b
      = c * ((∑ k, h k * w k) + b) + c * h j := by
  have e1 : ∀ k, h k * (c * w k + c * (if k = j then (1 : ℝ) else 0))
      = c * (h k * w k) + (if k = j then c * h k else 0) := by
    intro k; split_ifs <;> ring
  simp only [e1, Finset.sum_add_distrib, ← Finset.mul_sum, Finset.sum_ite_eq', Finset.mem_univ, if_true]
  ring

/-- The same in the extended reals, for real entries, with the contraction running over both halves of the packed
    row against the block-diagonal weight: the half of the other node meets the zero block. -/
theorem fold_ereal (hh : Fin 2 → Fin 64 → ℝ) (w : Fin 64 → ℝ) (c b : ℝ) (s : Fin 2) (j : Fin 64) :
    (∑ s' : Fin 2, ∑ k : Fin 64, (hh s' k : EReal)
        * (if s' = s then (c : EReal) * (w k : EReal) + (c : EReal) * (if k = j then (1 : EReal) else 0) else 0))
      + (c : EReal) * (b : EReal)
      = (c : EReal) * ((∑ k : Fin 64, (hh s k : EReal) * (w k : EReal)) + (b : EReal)) + (c : EReal) * (hh s j : EReal) := by
  have e0 : ∀ s' : Fin 2, (∑ k : Fin 64, (hh s' k : EReal)
        * (if s' = s then (c : EReal) * (w k : EReal) + (c : EReal) * (if k = j then (1 : EReal) else 0) else 0))
      = if s' = s then ∑ k : Fin 64, (hh s k : EReal)
          * ((c : EReal) * (w k : EReal) + (c : EReal) * (if k = j then (1 : EReal) else 0)) else 0 := by
    intro s'
    by_cases hs : s' = s
    · subst hs; rw [if_pos rfl]; exact Finset.sum_congr rfl fun k _ => by rw [if_pos rfl]
    · rw [if_neg hs]; exact Finset.sum_eq_zero fun k _ => by rw [if_neg hs, mul_zero]
  rw [Finset.sum_congr rfl (fun s' _ => e0 s'), Finset.sum_ite_eq' Finset.univ s, if_pos (Finset.mem_univ s)]
  have e1 : ∀ k : Fin 64, (if k = j then (1 : EReal) else 0) = (((if k = j then (1 : ℝ) else 0) : ℝ) : EReal) := by
    intro k; split_ifs <;> simp
  simp only [e1]
  have key := congrArg (fun x : ℝ => (x : EReal)) (fold_real (hh s) w c b j)
  simp only [EReal.coe_add, EReal.coe_mul, coe_sum] at key
  exact key

end Cert.Algebra

end
-- ==== Proof.Bridge.lean ====
import proofs.«124909_j21852793602415_2_alg».proof.Proof.PackedDef
import proofs.«124909_j21852793602415_2_alg».proof.Proof.Weights
import proofs.«124909_j21852793602415_2_alg».proof.Proof.Algebra
import Idealize.ShloMosaic.Lib.Pipeline.Value
import Idealize.ShloMosaic.Lib.ValueIdx

noncomputable section

namespace Cert.KernelIdeal.Bridge

open Cert.KernelIdeal Cert.KernelIdeal.Packed Cert.KernelIdeal.Weights Idealize.ShloMosaic Idealize.ShloMosaic.ValueIdx

/-! ## The two views of a node array

An array of 50000 nodes by 64 features and an array of 25000 rows by 128 lanes are the same row-major data:
node `n = 2 r + s`, feature `j` is row `r`, lane `64 s + j`  (`64 n + j = 128 r + 64 s + j`). -/

/-- The packed view read back as nodes: node `n = 2 r + s`, feature `j` is row `r`, lane `64 s + j`. -/
theorem unpack_apply {α : Type} (P : S25000x128.Idx → α) (r : Fin 25000) (s : Fin 2) (n : Fin 50000)
    (hn : n.val = 2 * r.val + s.val) (j : Fin 64) :
    shapeCast S50000x64 P Facts₀.shapeCasts_S25000x128_S50000x64 (ix2 n j)
      = P (ix2 r (⟨64 * s.val + j.val, by omega⟩ : Fin 128)) :=
  shapeCast_apply P Facts₀.shapeCasts_S25000x128_S50000x64 (ix2 n j) (ix2 r (⟨64 * s.val + j.val, by omega⟩ : Fin 128))
    (by rewrite [Shape.rowMajor_val_two, Shape.rowMajor_val_two]
        show r.val * 128 + (64 * s.val + j.val) = n.val * 64 + j.val; omega)

/-- The node array read in the packed view: row `r`, lane `64 s + k` is node `2 r + s`, feature `k`. -/
theorem pack_apply {α : Type} (X : S50000x64.Idx → α) (r : Fin 25000) (s : Fin 2) (k : Fin 64) :
    shapeCast S25000x128 X Facts₀.shapeCasts_S50000x64_S25000x128 (ix2 r (⟨64 * s.val + k.val, by omega⟩ : Fin 128))
      = X (ix2 (⟨2 * r.val + s.val, by omega⟩ : Fin 50000) k) :=
  shapeCast_apply X Facts₀.shapeCasts_S50000x64_S25000x128 (ix2 r (⟨64 * s.val + k.val, by omega⟩ : Fin 128))
    (ix2 (⟨2 * r.val + s.val, by omega⟩ : Fin 50000) k)
    (by rewrite [Shape.rowMajor_val_two, Shape.rowMajor_val_two]
        show (2 * r.val + s.val) * 64 + k.val = r.val * 128 + (64 * s.val + k.val); omega)

/-! ## The three literal constants are real numbers -/

/-- An extended real that is neither infinity is a real number. -/
theorem real_of_ne {x : EReal} (h1 : x ≠ ⊤) (h2 : x ≠ ⊥) : ∃ r : ℝ, x = (r : EReal) :=
  ⟨x.toReal, (EReal.coe_toReal h1 h2).symm⟩

/-- The pattern of 0.9 (rounded to single precision) is a real number. -/
theorem c9_real : ∃ r : ℝ, Ideal.ofBits .f32 0x3F666666#32 = (r : EReal) :=
  real_of_ne (by simp [Ideal.ofBits, Ideal.ieee, -EReal.coe_mul]) (by simp [Ideal.ofBits, Ideal.ieee, -EReal.coe_mul])

/-- The pattern of 0.1 (rounded to single precision) is a real number. -/
theorem c1_real : ∃ r : ℝ, Ideal.ofBits .f32 0x3DCCCCCD#32 = (r : EReal) :=
  real_of_ne (by simp [Ideal.ofBits, Ideal.ieee, -EReal.coe_mul]) (by simp [Ideal.ofBits, Ideal.ieee, -EReal.coe_mul])

/-- The pattern of one half is a real number. -/
theorem c5_real : ∃ r : ℝ, Ideal.ofBits .f32 0x3F000000#32 = (r : EReal) :=
  real_of_ne (by simp [Ideal.ofBits, Ideal.ieee, -EReal.coe_mul]) (by simp [Ideal.ofBits, Ideal.ieee, -EReal.coe_mul])

/-! ## The packed entry is the reference's entry -/

/-- Entry (row `r`, lane `64 s + j`) of the packed result, at the packed views of the node arrays and the folded
    weights, is the reference's value at node `2 r + s`, feature `j` — for real entries, where distributivity holds. -/
theorem packedAt_eq (H I : FVec Ideal S50000x64 .f32) (W : FVec Ideal S64x64 .f32) (b : FVec Ideal S64 .f32)
    (hH : ∀ i, ∃ r : ℝ, H i = (r : EReal)) (hI : ∀ i, ∃ r : ℝ, I i = (r : EReal))
    (hW : ∀ i, ∃ r : ℝ, W i = (r : EReal)) (hb : ∀ i, ∃ r : ℝ, b i = (r : EReal))
    (r : Fin 25000) (s : Fin 2) (j : Fin 64) :
    packedAt (shapeCast S25000x128 H Facts₀.shapeCasts_S50000x64_S25000x128)
        (shapeCast S25000x128 I Facts₀.shapeCasts_S50000x64_S25000x128) (wbd W) (b2 b)
        r (⟨64 * s.val + j.val, by omega⟩ : Fin 128)
      = Ideal.ofBits .f32 0x3F000000#32
          * ((∑ k : Fin 64, (Ideal.ofBits .f32 0x3F666666#32 * H (ix2 (⟨2 * r.val + s.val, by omega⟩ : Fin 50000) k)
                + Ideal.ofBits .f32 0x3DCCCCCD#32 * I (ix2 (⟨2 * r.val + s.val, by omega⟩ : Fin 50000) k)) * W (ix2 j k))
              + b (ix1 j))
        + Ideal.ofBits .f32 0x3F000000#32
          * (Ideal.ofBits .f32 0x3F666666#32 * H (ix2 (⟨2 * r.val + s.val, by omega⟩ : Fin 50000) j)
              + Ideal.ofBits .f32 0x3DCCCCCD#32 * I (ix2 (⟨2 * r.val + s.val, by omega⟩ : Fin 50000) j)) := by
  choose Hr hHr using hH
  choose Ir hIr using hI
  choose Wr hWr using hW
  choose br hbr using hb
  obtain ⟨c9, hc9⟩ := c9_real
  obtain ⟨c1, hc1⟩ := c1_real
  obtain ⟨c5, hc5⟩ := c5_real
  -- the identity over the reals, carried to the extended reals
  have key := Cert.Algebra.fold_ereal
    (fun s' k => c9 * Hr (ix2 (⟨2 * r.val + s'.val, by omega⟩ : Fin 50000) k)
      + c1 * Ir (ix2 (⟨2 * r.val + s'.val, by omega⟩ : Fin 50000) k))
    (fun k => Wr (ix2 j k)) c5 (br (ix1 j)) s j
  simp only [EReal.coe_add, EReal.coe_mul] at key
  simp only [← hHr, ← hIr, ← hWr, ← hbr, ← hc9, ← hc1, ← hc5] at key
  refine Eq.trans ?_ key
  -- the packed entry, lane by lane
  unfold packedAt
  rw [Cert.Algebra.sum_halves, b2_apply]
  refine congrArg (· + _) ?_
  refine Finset.sum_congr rfl fun s' _ => Finset.sum_congr rfl fun k _ => ?_
  rw [pack_apply, pack_apply, wbd_apply]

/-- The kernel's result, read as nodes, is the reference's result, entry by entry, for real inputs. -/
theorem result_eq (H I : FVec Ideal S50000x64 .f32) (W : FVec Ideal S64x64 .f32) (b : FVec Ideal S64 .f32)
    (hH : ∀ i, ∃ r : ℝ, H i = (r : EReal)) (hI : ∀ i, ∃ r : ℝ, I i = (r : EReal))
    (hW : ∀ i, ∃ r : ℝ, W i = (r : EReal)) (hb : ∀ i, ∃ r : ℝ, b i = (r : EReal))
    (n : Fin 50000) (j : Fin 64) :
    shapeCast S50000x64
        (packed (shapeCast S25000x128 H Facts₀.shapeCasts_S50000x64_S25000x128)
          (shapeCast S25000x128 I Facts₀.shapeCasts_S50000x64_S25000x128) (wbd W) (b2 b))
        Facts₀.shapeCasts_S25000x128_S50000x64 (ix2 n j)
      = Ideal.ofBits .f32 0x3F000000#32
          * ((∑ k : Fin 64, (Ideal.ofBits .f32 0x3F666666#32 * H (ix2 n k)
                + Ideal.ofBits .f32 0x3DCCCCCD#32 * I (ix2 n k)) * W (ix2 j k)) + b (ix1 j))
        + Ideal.ofBits .f32 0x3F000000#32
          * (Ideal.ofBits .f32 0x3F666666#32 * H (ix2 n j) + Ideal.ofBits .f32 0x3DCCCCCD#32 * I (ix2 n j)) := by
  have hr : n.val / 2 < 25000 := by omega
  have hs : n.val % 2 < 2 := by omega
  have hn : n.val = 2 * (⟨n.val / 2, hr⟩ : Fin 25000).val + (⟨n.val % 2, hs⟩ : Fin 2).val := by
    show n.val = 2 * (n.val / 2) + n.val % 2; omega
  refine (unpack_apply _ (⟨n.val / 2, hr⟩ : Fin 25000) (⟨n.val % 2, hs⟩ : Fin 2) n hn j).trans ?_
  have e : (⟨2 * (⟨n.val / 2, hr⟩ : Fin 25000).val + (⟨n.val % 2, hs⟩ : Fin 2).val, by omega⟩ : Fin 50000) = n :=
    Fin.ext hn.symm
  have h := packedAt_eq H I W b hH hI hW hb (⟨n.val / 2, hr⟩ : Fin 25000) (⟨n.val % 2, hs⟩ : Fin 2) j
  rw [e] at h
  exact h

end Cert.KernelIdeal.Bridge

end
-- ==== Proof.Finite.lean ====
import proofs.«124909_j21852793602415_2_alg».proof.Defs
import Idealize.ShloMosaic.Lib.ReduceAll
import Idealize.ShloMosaic.Lib.IdealHost

noncomputable section

open Idealize.ShloMosaic Idealize.ShloMosaic.TcCoe Idealize.SL.Sem

namespace Cert.Finite

open Cert.Pre_finite_inputs

/-- The rank-0 shape has exactly one index (the empty tuple of coordinates). -/
instance subsingleton_scalar_idx : Subsingleton S_.Idx := ⟨fun _ _ => funext fun d => d.elim0⟩

/-- An extended real whose absolute value `max x (-x)` lies strictly below `+∞` is neither `+∞` nor `-∞`,
    hence is (the embedding of) a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the precondition: `|x| < +∞` evaluating to the bit 1 says `x` is a real number.
    The pattern `0x7F800000` denotes `+∞`, the absolute value is `max x (-x)`, and the comparison is the
    strict order of the extended reals. -/
theorem real_of_elem (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine real_of_abs_lt_top x ?_
  by_contra hn
  simp [hn] at h'

/-- The conjunction, over all entries of an array of any shape, of the tests `|x i| < +∞`, reduced to a single bit
    that is 1: every entry of `x` is a real number. -/
theorem all_real {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi
          (cmpf .olt (Host.absf x) (broadcastInDim S ![] hb (constant (F := Ideal) S_ .f32 0x7F800000#32)))
          (constantI S_ 1 1#1) hr hu ValueIdx.ix0 = 1#1) :
    ∀ i, ∃ r : ℝ, x i = (r : EReal) := by
  intro i
  have e := Host.reduce_andi_all _ _ hr hu ValueIdx.ix0 h i
  exact real_of_elem (x i) e

/-- The precondition being the bit 1: every entry of each of the five float inputs is a real number.
    The precondition is the conjunction (by `and` on bits) of five tests "every entry has `|x i| < +∞`",
    one per float input. -/
theorem real_of_pre [Cert.Pre_finite_inputs.Facts]
    (x0 x1 : FVec Ideal Cert.Pre_finite_inputs.S50000x64 .f32)
    (x2 : FVec Ideal Cert.Pre_finite_inputs.S800000 .f32)
    (x3 : FVec Ideal Cert.Pre_finite_inputs.S64x64 .f32)
    (x4 : FVec Ideal Cert.Pre_finite_inputs.S64 .f32)
    (x5 : IVec Cert.Pre_finite_inputs.S2x800000 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) ∧
    (∀ i, ∃ r : ℝ, x4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real x0 _ _ _ h0', all_real x1 _ _ _ h1, all_real x2 _ _ _ h2, all_real x3 _ _ _ h3,
    all_real x4 _ _ _ h4⟩

end Cert.Finite

end
-- ==== Proof.HiddenFinite.lean ====
import proofs.«124909_j21852793602415_2_alg».proof.Proof.Gen.ReferenceIdeal.Read

noncomputable section

open Idealize.ShloMosaic Idealize.ShloMosaic.TcCoe Idealize.SL.Sem

namespace Cert.HiddenFinite

open Cert.ReferenceIdeal

/-- The embedding of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of extended reals each of which is a real number is a real number. -/
theorem sum_real {ι : Type*} (s : Finset ι) (g : ι → EReal) (hg : ∀ i ∈ s, ∃ r : ℝ, g i = (r : EReal)) :
    ∃ r : ℝ, ∑ i ∈ s, g i = (r : EReal) := by
  classical
  choose! f hf using hg
  exact ⟨∑ i ∈ s, f i, by rw [coe_sum]; exact Finset.sum_congr rfl hf⟩

/-- An accumulating scatter of real updates into a real operand is real, at any shapes and whatever the indices
    are: its entry at `i` is the operand's entry plus the finite sum of the updates that land on `i`. -/
theorem scatterAdd_real {s si su : Shape} {w : Nat} (d : ScatterDims s si su) (x : FVec Ideal s .f32)
    (idx : IVec si w) (upd : FVec Ideal su .f32) (hx : ∀ i, ∃ r : ℝ, x i = (r : EReal))
    (hu : ∀ j, ∃ r : ℝ, upd j = (r : EReal)) :
    ∀ i, ∃ r : ℝ, Host.scatterAdd d x idx upd i = (r : EReal) := by
  intro i
  obtain ⟨a, ha⟩ := hx i
  obtain ⟨b, hb⟩ := sum_real (Finset.univ.filter (fun j => d.resultIdx? j idx = some i)) upd (fun j _ => hu j)
  refine ⟨a + b, ?_⟩
  show x i + ∑ j ∈ Finset.univ.filter (fun j => d.resultIdx? j idx = some i), upd j = _
  rw [ha, hb, EReal.coe_add]

variable [Cert.ReferenceIdeal.Facts]

/-- Every entry of the weighted gathered rows `w e * x (src e)` is a real number when the weights and the entries
    of `x` are: a gathered entry is some entry of `x`, whichever one the index array selects, and a product of two
    reals is a real. -/
theorem update_real (x0 : FVec Ideal S50000x64 .f32) (x2 : FVec Ideal S800000 .f32) (x5 : IVec S2x800000 32)
    (h0 : ∀ i, ∃ r : ℝ, x0 i = (r : EReal)) (h2 : ∀ i, ∃ r : ℝ, x2 i = (r : EReal)) :
    ∀ j, ∃ r : ℝ, Cert.ReferenceIdeal.Read.val_main_v13 (F := Ideal) x0 x2 x5 j = (r : EReal) := by
  intro j
  rw [Read.val_main_v13_apply, Read.val_main_v12_apply, Read.val_main_v4_apply]
  obtain ⟨a, ha⟩ := h2 (Read.idx_main_v4 (Read.idx_main_v12 j))
  obtain ⟨b, hb⟩ : ∃ r : ℝ, Read.val_main_v11 (F := Ideal) x0 x5 j = (r : EReal) := h0 _
  rw [ha, hb]
  exact ⟨a * b, (EReal.coe_mul a b).symm⟩

/-- The array of zeros the segment sum starts from has real entries. -/
theorem zeros_real : ∀ i, ∃ r : ℝ, Cert.ReferenceIdeal.Read.val_main_v14 (F := Ideal) i = (r : EReal) := by
  intro i
  refine ⟨0, ?_⟩
  rw [Read.val_main_v14_apply, Read.val_main_cst_apply, Ideal.ofBits_def, Ideal.ofBits_zero_f32, EReal.coe_zero]

/-- Every entry of the segment sum `hidden i = 0 + ∑ {e | dst e = i} w e * x (src e)` is a real number when the
    weights and the entries of `x` are: it is zero plus a finite sum of real numbers, wherever the updates land. -/
theorem hidden_real (x0 : FVec Ideal S50000x64 .f32) (x2 : FVec Ideal S800000 .f32) (x5 : IVec S2x800000 32)
    (h0 : ∀ i, ∃ r : ℝ, x0 i = (r : EReal)) (h2 : ∀ i, ∃ r : ℝ, x2 i = (r : EReal)) :
    ∀ i, ∃ r : ℝ, Cert.ReferenceIdeal.Read.val_main_v16 (F := Ideal) x0 x2 x5 i = (r : EReal) :=
  scatterAdd_real _ _ _ _ zeros_real (update_real x0 x2 x5 h0 h2)

end Cert.HiddenFinite

end
-- ==== Proof.lean ====
/- The proof of `Cert.Claim`: a graph-convolution layer with an initial-feature mix and a residual mix.

   Both programs first form  hidden = segment_sum(edge_weight * x[src], dst)  by the same gather, multiply and
   scatter-add, and mix  hc = 0.9f * hidden + 0.1f * init_x.  The reference then returns
       0.5 * (hc @ Wᵀ + b) + 0.5 * hc.
   The kernel folds the residual mix into the linear layer on the host — weight  0.5 * Wᵀ + 0.5 * I,  bias
   0.5 * b — packs two nodes into one 128-lane row (so the weight becomes block diagonal, 128 x 128), and
   computes  hc2 @ wbd + b2  in five row blocks. Over the extended reals both are, entry by entry,
       0.5 * ((sum_k hc[n,k] * W[j,k]) + b[j]) + 0.5 * hc[n,j]
   PROVIDED every entry is a real number: the step between them is distributivity, which fails at the
   infinities. That is where the precondition (every float input finite) is used, through the finiteness of the
   scatter-add of finite products.

   Modules: Payload (the body's stored value at an entry), Packed and Blocks (the five blocks are one array),
   Entry (the arrays the call is entered with, the reshape after it), Weights (the folded weight and bias at an
   entry), KernelRun (the kernel program's result as one function of its arguments), RefValue (the reference's
   result at an entry), Algebra and Bridge (the identity), Finite and HiddenFinite (the entries are reals). -/
import proofs.«124909_j21852793602415_2_alg».proof.Defs
import proofs.«124909_j21852793602415_2_alg».proof.Proof.Gen.Kernel
import proofs.«124909_j21852793602415_2_alg».proof.Proof.Gen.Kernel.Frame
import proofs.«124909_j21852793602415_2_alg».proof.Proof.Gen.KernelIdeal
import proofs.«124909_j21852793602415_2_alg».proof.Proof.Gen.KernelIdeal.Frame
import proofs.«124909_j21852793602415_2_alg».proof.Proof.Gen.ReferenceIdeal
import proofs.«124909_j21852793602415_2_alg».proof.Proof.Gen.ReferenceIdeal.Run
import proofs.«124909_j21852793602415_2_alg».proof.Proof.Gen.ReferenceIdeal.Read
import proofs.«124909_j21852793602415_2_alg».proof.Proof.Gen.Pre_finite_inputs
import proofs.«124909_j21852793602415_2_alg».proof.Proof.KernelRun
import proofs.«124909_j21852793602415_2_alg».proof.Proof.RefValue
import proofs.«124909_j21852793602415_2_alg».proof.Proof.Bridge
import proofs.«124909_j21852793602415_2_alg».proof.Proof.Finite
import proofs.«124909_j21852793602415_2_alg».proof.Proof.HiddenFinite
import Idealize.ShloMosaic.Adequacy
import Idealize.ShloMosaic.Init

noncomputable section

namespace Cert.Proof

open Idealize.ShloMosaic Idealize.SL.Sem Idealize.ShloMosaic.ValueIdx

/-- For finite inputs the reference's result and the kernel program's result are one array: entry by entry the
    reference's  0.5 * (hc · W[j,:] + b[j]) + 0.5 * hc[n,j]  is the kernel's packed contraction against the folded
    block-diagonal weight, every entry being real. -/
theorem reference_eq_kernel (x0 x1 : FVec Ideal Cert.KernelIdeal.S50000x64 .f32) (x2 : FVec Ideal Cert.KernelIdeal.S800000 .f32)
    (x3 : FVec Ideal Cert.KernelIdeal.S64x64 .f32) (x4 : FVec Ideal Cert.KernelIdeal.S64 .f32) (x5 : IVec Cert.KernelIdeal.S2x800000 32)
    (hpre : Cert.Pre_finite_inputs.fn (F := Ideal) x0 x1 x2 x3 x4 x5 = fun _ => 1#1) :
    Cert.ReferenceIdeal.Read.val_main_v31 (F := Ideal) x0 x1 x2 x3 x4 x5 = Cert.KernelIdeal.Run.result x0 x1 x2 x3 x4 x5 := by
  obtain ⟨h0, h1, h2, h3, h4⟩ := Cert.Finite.real_of_pre x0 x1 x2 x3 x4 x5 hpre
  have hH := Cert.HiddenFinite.hidden_real x0 x2 x5 h0 h2
  funext i
  obtain ⟨n, j, rfl⟩ : ∃ (n : Fin 50000) (j : Fin 64), i = ix2 n j := ⟨i 0, i 1, eq_ix2 i⟩
  rw [Cert.ReferenceIdeal.RefValue.result_apply]
  exact (Cert.KernelIdeal.Bridge.result_eq _ x1 x3 x4 hH h1 h3 h4 n j).symm

/-- The word-level kernel program runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories agreeing on the arguments, both idealized programs end with the same result array. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono
    (fun _ h c => ⟨(h c).1.trans ((Cert.ReferenceIdeal.Read.val_main_v31_eq _ _ _ _ _ _).trans ?_), (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact reference_eq_kernel _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
